-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8388608x3 .f32) (main_arg1 : FVec F S8x3 .f32) (main_arg2 : FVec F S8 .f32) (main_arg3 : FVec F S1x8 .f32) (main_arg4 : FVec F S1 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S1x8 .f32 := Host.absf main_arg3
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg4 main_v13 main_v16
-- ==== Kernel.lean ====
abbrev S8388608x3 : Shape := ⟨2, ![8388608, 3]⟩
abbrev S8x3 : Shape := ⟨2, ![8, 3]⟩
abbrev S8 : Shape := ⟨1, ![8]⟩
abbrev S1x8 : Shape := ⟨2, ![1, 8]⟩
abbrev S1 : Shape := ⟨1, ![1]⟩
abbrev S3x8 : Shape := ⟨2, ![3, 8]⟩
abbrev S1x1 : Shape := ⟨2, ![1, 1]⟩
abbrev S8388608x1 : Shape := ⟨2, ![8388608, 1]⟩
abbrev S16384x3 : Shape := ⟨2, ![16384, 3]⟩
abbrev S16384x1 : Shape := ⟨2, ![16384, 1]⟩
abbrev S16384x8 : Shape := ⟨2, ![16384, 8]⟩
abbrev S16384 : Shape := ⟨1, ![16384]⟩

abbrev nBuf : Space → Nat
  | .hbm => 9
  | .vmem => 8
  | .smem => 0
  | _ => 0

abbrev bufTy : (tb : Table) → Fin (tcTables nBuf tb) → BufTy
  | .hbm, ⟨0, _⟩ => ⟨S8388608x3, .f32⟩
  | .hbm, ⟨1, _⟩ => ⟨S8x3, .f32⟩
  | .hbm, ⟨2, _⟩ => ⟨S8, .f32⟩
  | .hbm, ⟨3, _⟩ => ⟨S1x8, .f32⟩
  | .hbm, ⟨4, _⟩ => ⟨S1, .f32⟩
  | .hbm, ⟨5, _⟩ => ⟨S3x8, .f32⟩
  | .hbm, ⟨6, _⟩ => ⟨S1x8, .f32⟩
  | .hbm, ⟨7, _⟩ => ⟨S1x1, .f32⟩
  | .hbm, ⟨8, _⟩ => ⟨S8388608x1, .f32⟩
  | .local _ .vmem, ⟨0, _⟩ => ⟨S16384x3, .f32⟩
  | .local _ .vmem, ⟨1, _⟩ => ⟨S16384x3, .f32⟩
  | .local _ .vmem, ⟨2, _⟩ => ⟨S3x8, .f32⟩
  | .local _ .vmem, ⟨3, _⟩ => ⟨S1x8, .f32⟩
  | .local _ .vmem, ⟨4, _⟩ => ⟨S1x8, .f32⟩
  | .local _ .vmem, ⟨5, _⟩ => ⟨S1x1, .f32⟩
  | .local _ .vmem, ⟨6, _⟩ => ⟨S16384x1, .f32⟩
  | .local _ .vmem, ⟨7, _⟩ => ⟨S16384x1, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8x3_S3x8_1_0 : S8x3.Transposes [1, 0] S3x8
  shapeCasts_S8_S1x8 : S8.ShapeCasts S1x8
  shapeCasts_S1_S1x1 : S1.ShapeCasts S1x1
  inb_S16384x3_S16384x3_0_0 : ∀ a, (![0, 0] : Fin 2 → Nat) a + S16384x3.size a ≤ S16384x3.size a
  h_S16384x3 : 0 < S16384x3.numel
  slices_S16384x3_o0_0_S16384x1 : S16384x3.Slices ![0, 0] S16384x1
  slices_S16384x3_o0_1_S16384x1 : S16384x3.Slices ![0, 1] S16384x1
  slices_S16384x3_o0_2_S16384x1 : S16384x3.Slices ![0, 2] S16384x1
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S3x8_o0_0_S1x8 : S3x8.Slices ![0, 0] S1x8
  slices_S3x8_o1_0_S1x8 : S3x8.Slices ![1, 0] S1x8
  slices_S3x8_o2_0_S1x8 : S3x8.Slices ![2, 0] S1x8
  broadcasts_S16384x1_S16384x8 : S16384x1.Broadcasts S16384x8
  broadcasts_S1x8_S16384x8 : S1x8.Broadcasts S16384x8
  reduces_S16384x8_S16384 : S16384x8.Reduces [1] S16384
  shapeCasts_S16384_S16384x1 : S16384.ShapeCasts S16384x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x3.size a ≤ S8388608x3.size a
  hwx0_0 : ∀ i : grid0.Coords, EltTy.bits .f32 = 32 ∨ (Rect.block (s := S8388608x3) S16384x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8.size a ≤ S3x8.size a
  hwx0_1 : ∀ i : grid0.Coords, EltTy.bits .f32 = 32 ∨ (Rect.block (s := S3x8) S3x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x1.size a ≤ S8388608x1.size a
  hwx0_5 : ∀ i : grid0.Coords, EltTy.bits .f32 = 32 ∨ (Rect.block (s := S8388608x1) S16384x1.size (cc0_transform_5 i) (hinb0_5 i)).WholeWords (EltTy.packing .f32)

variable [Facts₀]

abbrev win0_0 : Pipeline.Window sig grid0 :=
  Pipeline.Window.ofSpec (Memref.whole main_arg0) S16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16384x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8x3 : Shape := ⟨2, ![8, 3]⟩
abbrev S8 : Shape := ⟨1, ![8]⟩
abbrev S1x8 : Shape := ⟨2, ![1, 8]⟩
abbrev S1 : Shape := ⟨1, ![1]⟩
abbrev S8388608x1 : Shape := ⟨2, ![8388608, 1]⟩
abbrev S8388608x2 : Shape := ⟨2, ![8388608, 2]⟩
abbrev S3x8 : Shape := ⟨2, ![3, 8]⟩
abbrev S8388608x8 : Shape := ⟨2, ![8388608, 8]⟩
abbrev S_ : Shape := ⟨0, ![]⟩
abbrev S8x1 : Shape := ⟨2, ![8, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8x3, .f32⟩
  | .hbm, ⟨2, _⟩ => ⟨S8, .f32⟩
  | .hbm, ⟨3, _⟩ => ⟨S1x8, .f32⟩
  | .hbm, ⟨4, _⟩ => ⟨S1, .f32⟩
  | .hbm, ⟨5, _⟩ => ⟨S8388608x1, .f32⟩
  | .hbm, ⟨6, _⟩ => ⟨S8388608x2, .f32⟩
  | .hbm, ⟨7, _⟩ => ⟨S8388608x3, .f32⟩
  | .hbm, ⟨8, _⟩ => ⟨S3x8, .f32⟩
  | .hbm, ⟨9, _⟩ => ⟨S8388608x8, .f32⟩
  | .hbm, ⟨10, _⟩ => ⟨S1x8, .f32⟩
  | .hbm, ⟨11, _⟩ => ⟨S8388608x8, .f32⟩
  | .hbm, ⟨12, _⟩ => ⟨S8388608x8, .f32⟩
  | .hbm, ⟨13, _⟩ => ⟨S_, .f32⟩
  | .hbm, ⟨14, _⟩ => ⟨S8388608x8, .f32⟩
  | .hbm, ⟨15, _⟩ => ⟨S8388608x8, .f32⟩
  | .hbm, ⟨16, _⟩ => ⟨S8x1, .f32⟩
  | .hbm, ⟨17, _⟩ => ⟨S8388608x1, .f32⟩
  | .hbm, ⟨18, _⟩ => ⟨S1x1, .f32⟩
  | .hbm, ⟨19, _⟩ => ⟨S8388608x1, .f32⟩
  | .hbm, ⟨20, _⟩ => ⟨S8388608x1, .f32⟩
  | .hbm, ⟨21, _⟩ => ⟨S_, .f32⟩
  | .hbm, ⟨22, _⟩ => ⟨S8388608x1, .f32⟩
  | .hbm, ⟨23, _⟩ => ⟨S8388608x1, .f32⟩
  | .hbm, ⟨24, _⟩ => ⟨S8388608x1, .f32⟩
  | .hbm, ⟨25, _⟩ => ⟨S8388608x3, .f32⟩
  | .hbm, ⟨26, _⟩ => ⟨S3x8, .f32⟩
  | .hbm, ⟨27, _⟩ => ⟨S8388608x8, .f32⟩
  | .hbm, ⟨28, _⟩ => ⟨S1x8, .f32⟩
  | .hbm, ⟨29, _⟩ => ⟨S8388608x8, .f32⟩
  | .hbm, ⟨30, _⟩ => ⟨S8388608x8, .f32⟩
  | .hbm, ⟨31, _⟩ => ⟨S_, .f32⟩
  | .hbm, ⟨32, _⟩ => ⟨S8388608x8, .f32⟩
  | .hbm, ⟨33, _⟩ => ⟨S8388608x8, .f32⟩
  | .hbm, ⟨34, _⟩ => ⟨S8x1, .f32⟩
  | .hbm, ⟨35, _⟩ => ⟨S8388608x1, .f32⟩
  | .hbm, ⟨36, _⟩ => ⟨S1x1, .f32⟩
  | .hbm, ⟨37, _⟩ => ⟨S8388608x1, .f32⟩
  | .hbm, ⟨38, _⟩ => ⟨S8388608x1, .f32⟩
  | .hbm, ⟨39, _⟩ => ⟨S_, .f32⟩
  | .hbm, ⟨40, _⟩ => ⟨S8388608x1, .f32⟩
  | .hbm, ⟨41, _⟩ => ⟨S8388608x1, .f32⟩
  | .hbm, ⟨42, _⟩ => ⟨S8388608x1, .f32⟩
  | .hbm, ⟨43, _⟩ => ⟨S8388608x3, .f32⟩
  | .hbm, ⟨44, _⟩ => ⟨S3x8, .f32⟩
  | .hbm, ⟨45, _⟩ => ⟨S8388608x8, .f32⟩
  | .hbm, ⟨46, _⟩ => ⟨S1x8, .f32⟩
  | .hbm, ⟨47, _⟩ => ⟨S8388608x8, .f32⟩
  | .hbm, ⟨48, _⟩ => ⟨S8388608x8, .f32⟩
  | .hbm, ⟨49, _⟩ => ⟨S_, .f32⟩
  | .hbm, ⟨50, _⟩ => ⟨S8388608x8, .f32⟩
  | .hbm, ⟨51, _⟩ => ⟨S8388608x8, .f32⟩
  | .hbm, ⟨52, _⟩ => ⟨S8x1, .f32⟩
  | .hbm, ⟨53, _⟩ => ⟨S8388608x1, .f32⟩
  | .hbm, ⟨54, _⟩ => ⟨S1x1, .f32⟩
  | .hbm, ⟨55, _⟩ => ⟨S8388608x1, .f32⟩
  | .hbm, ⟨56, _⟩ => ⟨S8388608x1, .f32⟩
  | .hbm, ⟨57, _⟩ => ⟨S_, .f32⟩
  | .hbm, ⟨58, _⟩ => ⟨S8388608x1, .f32⟩
  | .hbm, ⟨59, _⟩ => ⟨S8388608x1, .f32⟩
  | .hbm, ⟨60, _⟩ => ⟨S8388608x1, .f32⟩
  | .hbm, ⟨61, _⟩ => ⟨S8388608x3, .f32⟩
  | .hbm, ⟨62, _⟩ => ⟨S3x8, .f32⟩
  | .hbm, ⟨63, _⟩ => ⟨S8388608x8, .f32⟩
  | .hbm, ⟨64, _⟩ => ⟨S1x8, .f32⟩
  | .hbm, ⟨65, _⟩ => ⟨S8388608x8, .f32⟩
  | .hbm, ⟨66, _⟩ => ⟨S8388608x8, .f32⟩
  | .hbm, ⟨67, _⟩ => ⟨S_, .f32⟩
  | .hbm, ⟨68, _⟩ => ⟨S8388608x8, .f32⟩
  | .hbm, ⟨69, _⟩ => ⟨S8388608x8, .f32⟩
  | .hbm, ⟨70, _⟩ => ⟨S8x1, .f32⟩
  | .hbm, ⟨71, _⟩ => ⟨S8388608x1, .f32⟩
  | .hbm, ⟨72, _⟩ => ⟨S1x1, .f32⟩
  | .hbm, ⟨73, _⟩ => ⟨S8388608x1, .f32⟩
  | .hbm, ⟨74, _⟩ => ⟨S8388608x1, .f32⟩
  | .hbm, ⟨75, _⟩ => ⟨S8388608x1, .f32⟩
  | .hbm, ⟨76, _⟩ => ⟨S_, .f32⟩
  | .hbm, ⟨77, _⟩ => ⟨S8388608x1, .f32⟩
  | .hbm, ⟨78, _⟩ => ⟨S8388608x1, .f32⟩
  | .hbm, ⟨79, _⟩ => ⟨S8388608x1, .f32⟩
  | .hbm, ⟨80, _⟩ => ⟨S8388608x1, .f32⟩
  | .hbm, ⟨81, _⟩ => ⟨S_, .f32⟩
  | .hbm, ⟨82, _⟩ => ⟨S8388608x1, .f32⟩
  | .hbm, ⟨83, _⟩ => ⟨S8388608x1, .f32⟩
  | .hbm, ⟨84, _⟩ => ⟨S8388608x1, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_cst : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call2_cst : Ref sig .tc := ⟨.hbm, 49, rfl⟩
abbrev main_call2_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call3_cst : Ref sig .tc := ⟨.hbm, 67, rfl⟩
abbrev main_call3_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_2 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_3 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]

class Facts₀ : Prop where
  slices_S8388608x3_S8388608x1_0_0 : S8388608x3.Slices ![0, 0] S8388608x1
  slices_S8388608x3_S8388608x2_0_1 : S8388608x3.Slices ![0, 1] S8388608x2
  concatenates_S8388608x1_S8388608x2_S8388608x3_d1 : Shape.Concatenates [S8388608x1, S8388608x2] S8388608x3 1
  transposes_S8x3_S3x8_1_0 : S8x3.Transposes [1, 0] S3x8
  bcast_S8_S1x8_1 : S8.BroadcastsInDim S1x8 (![1] : Fin 1 → Fin S1x8.rank)
  bcast_S1x8_S8388608x8_0_1 : S1x8.BroadcastsInDim S8388608x8 (![0, 1] : Fin 2 → Fin S8388608x8.rank)
  bcast_S_S8388608x8 : S_.BroadcastsInDim S8388608x8 (![] : Fin 0 → Fin S8388608x8.rank)
  transposes_S1x8_S8x1_1_0 : S1x8.Transposes [1, 0] S8x1
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  bcast_S_S8388608x1 : S_.BroadcastsInDim S8388608x1 (![] : Fin 0 → Fin S8388608x1.rank)
  dot_S8388608x3_S3x8_S8388608x8_1_0_0_1_n_n_wf : DotDims.WF S8388608x3 S3x8 S8388608x8 [1] [0] [0] [1] [] []
  dot_S8388608x8_S8x1_S8388608x1_1_0_0_1_n_n_wf : DotDims.WF S8388608x8 S8x1 S8388608x1 [1] [0] [0] [1] [] []

variable [Facts₀]

def dot_S8388608x3_S3x8_S8388608x8_1_0_0_1_n_n : DotDims S8388608x3 S3x8 S8388608x8 where
  lhsContracting := [1]
  rhsContracting := [0]
  lhsNonContracting := [0]
  rhsNonContracting := [1]
  lhsBatch := []
  rhsBatch := []
  wf := dot_S8388608x3_S3x8_S8388608x8_1_0_0_1_n_n_wf
def dot_S8388608x8_S8x1_S8388608x1_1_0_0_1_n_n : DotDims S8388608x8 S8x1 S8388608x1 where
  lhsContracting := [1]
  rhsContracting := [0]
  lhsNonContracting := [0]
  rhsNonContracting := [1]
  lhsBatch := []
  rhsBatch := []
  wf := dot_S8388608x8_S8x1_S8388608x1_1_0_0_1_n_n_wf

class Facts : Prop extends Facts₀ where

variable [Facts]
-- ==== Proof.Rk4Spec.lean ====
/-
  One classical Runge–Kutta step of the scalar equation y0' = f(y0; y1, y2), where f is a small perceptron: three inputs
  (the integrated coordinate and two frozen ones), eight hidden units with a ramp activation, one output.

  For a row (y0, y1, y2) of the data, weights w : 3 × 8, hidden bias b, output weights v and output bias c,
      pre(s) j   = ((s · w 0 j + y1 · w 1 j) + y2 · w 2 j) + b j          the hidden pre-activation of unit j at stage value s
      slope(s)   = (Σ j, max (pre(s) j) 0 · v j) + c                       the perceptron's output
      k1 = slope(y0),  k2 = slope(y0 + h/2 · k1),  k3 = slope(y0 + h/2 · k2),  k4 = slope(y0 + h · k3)
      step       = y0 + ((k1 + 2 · (k2 + k3)) + k4) · (h/6)
  with h = 1/4. Everything is read over the extended reals, where addition and multiplication are commutative and
  associative but do not distribute at the infinities; nothing below uses more than the regrouping of a three-term sum.
  The five float constants are kept as the bit patterns both programs print (0, 1/8, 1/4, 2 and the single-precision
  neighbour of 1/24): the same pattern stands on both sides, so its value is never needed.
-/
import Idealize.ShloMosaic.PureOps.Ideal
import Idealize.ShloMosaic.Lib.ValueIdx

noncomputable section

namespace Cert.Rk4Spec

open Idealize.ShloMosaic Idealize.ShloMosaic.ValueIdx

/-- The ramp's threshold, the pattern of 0. -/
abbrev cZero : EReal := Ideal.ofBits .f32 0x00000000#32
/-- Half the step length, the pattern of 1/8. -/
abbrev cHalfStep : EReal := Ideal.ofBits .f32 0x3E000000#32
/-- The step length, the pattern of 1/4. -/
abbrev cStep : EReal := Ideal.ofBits .f32 0x3E800000#32
/-- The weight of the two middle slopes, the pattern of 2. -/
abbrev cTwo : EReal := Ideal.ofBits .f32 0x40000000#32
/-- A sixth of the step length, the single-precision pattern nearest 1/24. -/
abbrev cSixth : EReal := Ideal.ofBits .f32 0x3D2AAAAB#32

/-- Hidden unit `j`'s pre-activation at stage value `s`: the three products added left to right, then the bias. -/
def pre (w : Fin 3 → Fin 8 → EReal) (b : Fin 8 → EReal) (y1 y2 s : EReal) (j : Fin 8) : EReal :=
  ((s * w 0 j + y1 * w 1 j) + y2 * w 2 j) + b j

/-- The output layer on hidden pre-activations `h`: the ramp, the weighted sum over the eight units, the bias. -/
def readout (v : Fin 8 → EReal) (c : EReal) (h : Fin 8 → EReal) : EReal :=
  (∑ j : Fin 8, max (h j) cZero * v j) + c

/-- The perceptron's output at stage value `s`. -/
def slope (w : Fin 3 → Fin 8 → EReal) (b v : Fin 8 → EReal) (c y1 y2 s : EReal) : EReal :=
  readout v c (pre w b y1 y2 s)

/-- The second, third and fourth stage values and the step's result, from the slopes before them. -/
def stage2 (y0 k1 : EReal) : EReal := y0 + cHalfStep * k1
def stage3 (y0 k2 : EReal) : EReal := y0 + cHalfStep * k2
def stage4 (y0 k3 : EReal) : EReal := y0 + cStep * k3
def combine (y0 k1 k2 k3 k4 : EReal) : EReal := y0 + ((k1 + cTwo * (k2 + k3)) + k4) * cSixth

/-- One Runge–Kutta step of a row. -/
def step (w : Fin 3 → Fin 8 → EReal) (b v : Fin 8 → EReal) (c y0 y1 y2 : EReal) : EReal :=
  combine y0 (slope w b v c y1 y2 y0)
    (slope w b v c y1 y2 (stage2 y0 (slope w b v c y1 y2 y0)))
    (slope w b v c y1 y2 (stage3 y0 (slope w b v c y1 y2 (stage2 y0 (slope w b v c y1 y2 y0)))))
    (slope w b v c y1 y2 (stage4 y0 (slope w b v c y1 y2 (stage3 y0 (slope w b v c y1 y2 (stage2 y0 (slope w b v c y1 y2 y0)))))))

/-- A hidden pre-activation written as the contraction of a three-entry row with a column of the weights, plus the
    bias, is `pre`: a sum over three indices is its terms added left to right. -/
theorem sum_three_eq_pre (w : Fin 3 → Fin 8 → EReal) (b : Fin 8 → EReal) (y1 y2 s : EReal) (j : Fin 8)
    (row : Fin 3 → EReal) (h0 : row 0 = s) (h1 : row 1 = y1) (h2 : row 2 = y2) :
    (∑ k : Fin 3, row k * w k j) + b j = pre w b y1 y2 s j := by
  rw [Fin.sum_univ_three, h0, h1, h2]
  rfl

/-- Row `r` of the step over whole arrays: the data `x : [8388608, 3]`, the hidden weights stored unit-major
    `W1 : [8, 3]`, the hidden bias `b1 : [8]`, the output weights `W2 : [1, 8]`, the output bias `b2 : [1]`. -/
def row (x : (⟨2, ![8388608, 3]⟩ : Shape).Idx → EReal) (W1 : (⟨2, ![8, 3]⟩ : Shape).Idx → EReal)
    (b1 : (⟨1, ![8]⟩ : Shape).Idx → EReal) (W2 : (⟨2, ![1, 8]⟩ : Shape).Idx → EReal) (b2 : (⟨1, ![1]⟩ : Shape).Idx → EReal)
    (r : Fin 8388608) : EReal :=
  step (fun k j => W1 (ix2 j k)) (fun j => b1 (ix1 j)) (fun j => W2 (ix2 (0 : Fin 1) j)) (b2 (ix1 (0 : Fin 1)))
    (x (ix2 r (0 : Fin 3))) (x (ix2 r (1 : Fin 3))) (x (ix2 r (2 : Fin 3)))

/-- The result array `[8388608, 1]`: entry `(r, 0)` is row `r`'s step. -/
def G (x : (⟨2, ![8388608, 3]⟩ : Shape).Idx → EReal) (W1 : (⟨2, ![8, 3]⟩ : Shape).Idx → EReal)
    (b1 : (⟨1, ![8]⟩ : Shape).Idx → EReal) (W2 : (⟨2, ![1, 8]⟩ : Shape).Idx → EReal) (b2 : (⟨1, ![1]⟩ : Shape).Idx → EReal) :
    (⟨2, ![8388608, 1]⟩ : Shape).Idx → EReal :=
  fun i => row x W1 b1 W2 b2 (i 0)

theorem G_apply (x : (⟨2, ![8388608, 3]⟩ : Shape).Idx → EReal) (W1 : (⟨2, ![8, 3]⟩ : Shape).Idx → EReal)
    (b1 : (⟨1, ![8]⟩ : Shape).Idx → EReal) (W2 : (⟨2, ![1, 8]⟩ : Shape).Idx → EReal) (b2 : (⟨1, ![1]⟩ : Shape).Idx → EReal)
    (r : Fin 8388608) (u : Fin 1) : G x W1 b1 W2 b2 (ix2 r u) = row x W1 b1 W2 b2 r := rfl

end Cert.Rk4Spec

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.Rk4Layers.lean ====
/-
  The perceptron's two layers as a kernel body spells them on a tile of `a` rows, read at a row `p`:
  * the hidden layer — each of the three inputs a column `[a, 1]` repeated along the eight lanes, each weight row and
    the bias a row `[1, 8]` repeated down the rows, the three products added left to right and then the bias — is
    `Rk4Spec.pre` of the row's three entries;
  * the output layer — the ramp against a splat of zero, times the output weights repeated down the rows, summed along
    the lanes keeping the axis, plus the `[1, 1]` bias repeated down the rows — is `Rk4Spec.readout`.
  Every step is a re-laying read at an index; no arithmetic law of the extended reals is used.
-/
import proofs.«156162_j74440373174513_2_alg».proof.Proof.Rk4Spec
import proofs.«156162_j74440373174513_2_alg».proof.Proof.LibColumnLayout

noncomputable section

namespace Cert.Rk4Layers

open Idealize.ShloMosaic Idealize.ShloMosaic.ValueIdx Cert.Rk4Spec Cert.ColumnLayout

/-- The first two products of a hidden pre-activation, at `(p, j)`. -/
theorem preact2_apply {a : ℕ} (s y1 : FVec Ideal ⟨2, ![a, 1]⟩ .f32) (w0 w1 : FVec Ideal ⟨2, ![1, 8]⟩ .f32)
    (hcol : (⟨2, ![a, 1]⟩ : Shape).Broadcasts ⟨2, ![a, 8]⟩) (hrow : (⟨2, ![1, 8]⟩ : Shape).Broadcasts ⟨2, ![a, 8]⟩)
    (p : Fin a) (j : Fin 8) :
    addf (mulf (broadcastTo ⟨2, ![a, 8]⟩ s hcol) (broadcastTo ⟨2, ![a, 8]⟩ w0 hrow))
        (mulf (broadcastTo ⟨2, ![a, 8]⟩ y1 hcol) (broadcastTo ⟨2, ![a, 8]⟩ w1 hrow)) (ix2 p j)
    = s (ix2 p (0 : Fin 1)) * w0 (ix2 (0 : Fin 1) j) + y1 (ix2 p (0 : Fin 1)) * w1 (ix2 (0 : Fin 1) j) := by
  show broadcastTo ⟨2, ![a, 8]⟩ s hcol (ix2 p j) * broadcastTo ⟨2, ![a, 8]⟩ w0 hrow (ix2 p j)
      + broadcastTo ⟨2, ![a, 8]⟩ y1 hcol (ix2 p j) * broadcastTo ⟨2, ![a, 8]⟩ w1 hrow (ix2 p j) = _
  rw [broadcastTo_a1_ab_apply s hcol p j, broadcastTo_a1_ab_apply y1 hcol p j,
    broadcastTo_1b_ab_apply w0 hrow p j, broadcastTo_1b_ab_apply w1 hrow p j]

/-- The last product and the bias added to a partial pre-activation `acc`, the third input already repeated along the
    lanes (`y2b`), at `(p, j)`. -/
theorem preact_tail_apply {a : ℕ} (acc y2b : FVec Ideal ⟨2, ![a, 8]⟩ .f32) (w2 bias : FVec Ideal ⟨2, ![1, 8]⟩ .f32)
    (hrow : (⟨2, ![1, 8]⟩ : Shape).Broadcasts ⟨2, ![a, 8]⟩) (p : Fin a) (j : Fin 8) :
    addf (addf acc (mulf y2b (broadcastTo ⟨2, ![a, 8]⟩ w2 hrow))) (broadcastTo ⟨2, ![a, 8]⟩ bias hrow) (ix2 p j)
    = (acc (ix2 p j) + y2b (ix2 p j) * w2 (ix2 (0 : Fin 1) j)) + bias (ix2 (0 : Fin 1) j) := by
  show (acc (ix2 p j) + y2b (ix2 p j) * broadcastTo ⟨2, ![a, 8]⟩ w2 hrow (ix2 p j))
      + broadcastTo ⟨2, ![a, 8]⟩ bias hrow (ix2 p j) = _
  rw [broadcastTo_1b_ab_apply w2 hrow p j, broadcastTo_1b_ab_apply bias hrow p j]

/-- A whole hidden pre-activation at `(p, j)`: `Rk4Spec.pre` of the row's entries, the weights' rows and the bias row. -/
theorem preact_apply {a : ℕ} (s y1 y2 : FVec Ideal ⟨2, ![a, 1]⟩ .f32) (w0 w1 w2 bias : FVec Ideal ⟨2, ![1, 8]⟩ .f32)
    (hcol : (⟨2, ![a, 1]⟩ : Shape).Broadcasts ⟨2, ![a, 8]⟩) (hrow : (⟨2, ![1, 8]⟩ : Shape).Broadcasts ⟨2, ![a, 8]⟩)
    (p : Fin a) (j : Fin 8) :
    addf (addf (addf (mulf (broadcastTo ⟨2, ![a, 8]⟩ s hcol) (broadcastTo ⟨2, ![a, 8]⟩ w0 hrow))
          (mulf (broadcastTo ⟨2, ![a, 8]⟩ y1 hcol) (broadcastTo ⟨2, ![a, 8]⟩ w1 hrow)))
        (mulf (broadcastTo ⟨2, ![a, 8]⟩ y2 hcol) (broadcastTo ⟨2, ![a, 8]⟩ w2 hrow)))
      (broadcastTo ⟨2, ![a, 8]⟩ bias hrow) (ix2 p j)
    = ((s (ix2 p (0 : Fin 1)) * w0 (ix2 (0 : Fin 1) j) + y1 (ix2 p (0 : Fin 1)) * w1 (ix2 (0 : Fin 1) j))
        + y2 (ix2 p (0 : Fin 1)) * w2 (ix2 (0 : Fin 1) j)) + bias (ix2 (0 : Fin 1) j) := by
  refine (preact_tail_apply _ (broadcastTo ⟨2, ![a, 8]⟩ y2 hcol) w2 bias hrow p j).trans ?_
  rw [preact2_apply s y1 w0 w1 hcol hrow p j, broadcastTo_a1_ab_apply y2 hcol p j]

/-- The output layer on a tile of hidden pre-activations `h`, at row `p`: `Rk4Spec.readout` of the row's eight
    pre-activations, the output weights' row and the bias. -/
theorem readout_apply {a : ℕ} (h : FVec Ideal ⟨2, ![a, 8]⟩ .f32) (z : Ideal .f32) (hz : z = cZero)
    (v : FVec Ideal ⟨2, ![1, 8]⟩ .f32) (c : FVec Ideal ⟨2, ![1, 1]⟩ .f32)
    (hb : (⟨2, ![1, 8]⟩ : Shape).Broadcasts ⟨2, ![a, 8]⟩)
    (hr : (⟨2, ![a, 8]⟩ : Shape).Reduces [(1 : Fin 2)] ⟨1, ![a]⟩) (hφ : FKind.Formats .f32)
    (acc : BitVec FTy.f32.bits) (hacc : acc = FKind.add.neutral .f32 hφ)
    (hs : (⟨1, ![a]⟩ : Shape).ShapeCasts ⟨2, ![a, 1]⟩) (hc : (⟨2, ![1, 1]⟩ : Shape).Broadcasts ⟨2, ![a, 1]⟩) (p : Fin a) :
    addf (shapeCast ⟨2, ![a, 1]⟩ (multiReduction .add [(1 : Fin 2)] ⟨1, ![a]⟩
        (mulf (maximumf h (broadcast ⟨2, ![a, 8]⟩ z)) (broadcastTo ⟨2, ![a, 8]⟩ v hb)) acc hr hφ hacc) hs)
      (broadcastTo ⟨2, ![a, 1]⟩ c hc) (ix2 p (0 : Fin 1))
    = readout (fun j => v (ix2 (0 : Fin 1) j)) (c (ix2 (0 : Fin 1) (0 : Fin 1))) (fun j => h (ix2 p j)) := by
  subst hz
  show shapeCast ⟨2, ![a, 1]⟩ (multiReduction .add [(1 : Fin 2)] ⟨1, ![a]⟩
        (mulf (maximumf h (broadcast ⟨2, ![a, 8]⟩ cZero)) (broadcastTo ⟨2, ![a, 8]⟩ v hb)) acc hr hφ hacc) hs (ix2 p (0 : Fin 1))
      + broadcastTo ⟨2, ![a, 1]⟩ c hc (ix2 p (0 : Fin 1)) = _
  rw [shapeCast_a_a1_apply _ hs p (0 : Fin 1), laneSum_apply _ acc hr hφ hacc p, broadcastTo_1b_ab_apply c hc p (0 : Fin 1)]
  unfold readout
  refine congrArg (· + c (ix2 (0 : Fin 1) (0 : Fin 1))) (Finset.sum_congr rfl fun j _ => ?_)
  show max (h (ix2 p j)) cZero * broadcastTo ⟨2, ![a, 8]⟩ v hb (ix2 p j) = _
  rw [broadcastTo_1b_ab_apply v hb p j]

end Cert.Rk4Layers

end
-- ==== Proof.Rk4Body.lean ====
/-
  What the kernel body computes for one row of its tile, over the extended reals.

  The body loads a tile `x0 : [16384, 3]` of the data, the hidden weights input-major `x1 : [3, 8]`, the hidden bias
  `x2 : [1, 8]`, the output weights `x3 : [1, 8]` and the output bias `x4 : [1, 1]`, and stores a column `[16384, 1]`.
  Its arithmetic is a chain of named values: the three columns of the tile and the three rows of the weights (slices), the
  first slope, then for each later stage the stage value (the first column plus a multiple of the previous slope), its
  hidden pre-activations and its slope, and last the weighted combination of the four slopes. Each named value is read
  here at row `p` (and lane `j` for the eight-lane ones) through the two layer lemmas; chained together, the stored
  column at row `p` is `Rk4Spec.step` of that row's three entries.
-/
import proofs.«156162_j74440373174513_2_alg».proof.Proof.Gen.KernelIdeal.Skeleton
import proofs.«156162_j74440373174513_2_alg».proof.Proof.Rk4Layers
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx
open Cert.Rk4Spec Cert.Rk4Layers Cert.ColumnLayout

/-- The hidden weights of a loaded `[3, 8]` block, input `k` to unit `j`. -/
abbrev wOf (x1 : Vec Ideal S3x8 .f32) : Fin 3 → Fin 8 → EReal := fun k j => x1 (ix2 k j)
/-- The eight entries of a loaded `[1, 8]` row. -/
abbrev rowOf (x : Vec Ideal S1x8 .f32) : Fin 8 → EReal := fun j => x (ix2 (0 : Fin 1) j)

/-! ## The slices -/

/-- The three one-column slices of the tile read, at row `p`, the tile's entries `(p, 0)`, `(p, 1)`, `(p, 2)`. -/
theorem col_apply (x0 : Vec Ideal S16384x3 .f32) (p : Fin 16384) :
    k0_pay2 x0 (ix2 p (0 : Fin 1)) = x0 (ix2 p (0 : Fin 3))
    ∧ k0_pay3 x0 (ix2 p (0 : Fin 1)) = x0 (ix2 p (1 : Fin 3))
    ∧ k0_pay4 x0 (ix2 p (0 : Fin 1)) = x0 (ix2 p (2 : Fin 3)) :=
  ⟨slice2_axis1_apply 0 x0 slices_S16384x3_o0_0_S16384x1 p (0 : Fin 1) (0 : Fin 3) rfl,
    slice2_axis1_apply 1 x0 slices_S16384x3_o0_1_S16384x1 p (0 : Fin 1) (1 : Fin 3) rfl,
    slice2_axis1_apply 2 x0 slices_S16384x3_o0_2_S16384x1 p (0 : Fin 1) (2 : Fin 3) rfl⟩

/-- A block cast to its own shape is itself: the weights, the hidden bias, the output bias. -/
theorem pay5_eq (x1 : Vec Ideal S3x8 .f32) : k0_pay5 x1 = x1 := shapeCast_self x1 _
theorem pay6_eq (x2 : Vec Ideal S1x8 .f32) : k0_pay6 x2 = x2 := shapeCast_self x2 _
theorem pay7_eq (x4 : Vec Ideal S1x1 .f32) : k0_pay7 x4 = x4 := shapeCast_self x4 _
theorem pay7_at (x4 : Vec Ideal S1x1 .f32) :
    k0_pay7 x4 (ix2 (0 : Fin 1) (0 : Fin 1)) = x4 (ix2 (0 : Fin 1) (0 : Fin 1)) := congrFun (pay7_eq x4) _

/-- The three one-row slices of the weights read, at lane `j`, the weights' entries `(0, j)`, `(1, j)`, `(2, j)`. -/
theorem wrow_apply (x1 : Vec Ideal S3x8 .f32) (j : Fin 8) :
    k0_pay8 x1 (ix2 (0 : Fin 1) j) = x1 (ix2 (0 : Fin 3) j)
    ∧ k0_pay9 x1 (ix2 (0 : Fin 1) j) = x1 (ix2 (1 : Fin 3) j)
    ∧ k0_pay10 x1 (ix2 (0 : Fin 1) j) = x1 (ix2 (2 : Fin 3) j) :=
  ⟨(slice2_axis0_apply 0 (k0_pay5 x1) slices_S3x8_o0_0_S1x8 (0 : Fin 1) j (0 : Fin 3) rfl).trans (congrFun (pay5_eq x1) _),
    (slice2_axis0_apply 1 (k0_pay5 x1) slices_S3x8_o1_0_S1x8 (0 : Fin 1) j (1 : Fin 3) rfl).trans (congrFun (pay5_eq x1) _),
    (slice2_axis0_apply 2 (k0_pay5 x1) slices_S3x8_o2_0_S1x8 (0 : Fin 1) j (2 : Fin 3) rfl).trans (congrFun (pay5_eq x1) _)⟩

/-- A hidden pre-activation assembled from the sliced columns and rows is `Rk4Spec.pre` of the row's entries. -/
theorem pre_of_slices (x0 : Vec Ideal S16384x3 .f32) (x1 : Vec Ideal S3x8 .f32) (x2 : Vec Ideal S1x8 .f32)
    (p : Fin 16384) (s : EReal) (j : Fin 8) :
    ((s * k0_pay8 x1 (ix2 (0 : Fin 1) j) + k0_pay3 x0 (ix2 p (0 : Fin 1)) * k0_pay9 x1 (ix2 (0 : Fin 1) j))
        + k0_pay4 x0 (ix2 p (0 : Fin 1)) * k0_pay10 x1 (ix2 (0 : Fin 1) j)) + k0_pay6 x2 (ix2 (0 : Fin 1) j)
      = pre (wOf x1) (rowOf x2) (x0 (ix2 p (1 : Fin 3))) (x0 (ix2 p (2 : Fin 3))) s j := by
  rw [(col_apply x0 p).2.1, (col_apply x0 p).2.2, (wrow_apply x1 j).1, (wrow_apply x1 j).2.1, (wrow_apply x1 j).2.2,
    pay6_eq]
  rfl

/-! ## The named values, each from the ones before it -/

/-- The first slope, at row `p`. -/
theorem pay11_apply (x0 : Vec Ideal S16384x3 .f32) (x1 : Vec Ideal S3x8 .f32) (x2 x3 : Vec Ideal S1x8 .f32)
    (x4 : Vec Ideal S1x1 .f32) (p : Fin 16384) :
    k0_pay11 x0 x1 x2 x3 x4 (ix2 p (0 : Fin 1))
      = slope (wOf x1) (rowOf x2) (rowOf x3) (x4 (ix2 (0 : Fin 1) (0 : Fin 1)))
          (x0 (ix2 p (1 : Fin 3))) (x0 (ix2 p (2 : Fin 3))) (x0 (ix2 p (0 : Fin 3))) := by
  unfold k0_pay11
  refine (readout_apply _ _ rfl x3 (k0_pay7 x4) _ _ _ _ _ _ _ p).trans ?_
  rw [pay7_at]
  refine congrArg (readout (rowOf x3) (x4 (ix2 (0 : Fin 1) (0 : Fin 1)))) (funext fun j => ?_)
  refine (preact_apply (k0_pay2 x0) (k0_pay3 x0) (k0_pay4 x0) (k0_pay8 x1) (k0_pay9 x1) (k0_pay10 x1) (k0_pay6 x2) _ _ p j).trans ?_
  rw [(col_apply x0 p).1]
  exact pre_of_slices x0 x1 x2 p _ j

/-- The first two products of the second stage's pre-activations, at `(p, j)`. -/
theorem pay12_apply (x0 : Vec Ideal S16384x3 .f32) (x1 : Vec Ideal S3x8 .f32) (x2 x3 : Vec Ideal S1x8 .f32)
    (x4 : Vec Ideal S1x1 .f32) (p : Fin 16384) (j : Fin 8) :
    k0_pay12 x0 x1 x2 x3 x4 (ix2 p j)
      = stage2 (x0 (ix2 p (0 : Fin 3))) (k0_pay11 x0 x1 x2 x3 x4 (ix2 p (0 : Fin 1))) * x1 (ix2 (0 : Fin 3) j)
        + x0 (ix2 p (1 : Fin 3)) * x1 (ix2 (1 : Fin 3) j) := by
  unfold k0_pay12
  refine (preact2_apply _ (k0_pay3 x0) (k0_pay8 x1) (k0_pay9 x1) _ _ p j).trans ?_
  rw [(col_apply x0 p).2.1, (wrow_apply x1 j).1, (wrow_apply x1 j).2.1]
  show (k0_pay2 x0 (ix2 p (0 : Fin 1)) + cHalfStep * k0_pay11 x0 x1 x2 x3 x4 (ix2 p (0 : Fin 1))) * _ + _ = _
  rw [(col_apply x0 p).1]
  rfl

/-- The third column repeated along the lanes, at `(p, j)`. -/
theorem pay13_apply (x0 : Vec Ideal S16384x3 .f32) (p : Fin 16384) (j : Fin 8) :
    k0_pay13 x0 (ix2 p j) = x0 (ix2 p (2 : Fin 3)) :=
  (broadcastTo_a1_ab_apply (k0_pay4 x0) broadcasts_S16384x1_S16384x8 p j).trans (col_apply x0 p).2.2

/-- The second slope from the partial pre-activations `v44` and the repeated third column `v45`, at row `p`. -/
theorem pay14_apply (v7 : FVec Ideal S1x8 .f32) (v8 : Vec Ideal S1x8 .f32) (v10 : FVec Ideal S1x1 .f32)
    (v13 : FVec Ideal S1x8 .f32) (v44 v45 : FVec Ideal S16384x8 .f32) (p : Fin 16384) :
    k0_pay14 v7 v8 v10 v13 v44 v45 (ix2 p (0 : Fin 1))
      = readout (rowOf v8) (v10 (ix2 (0 : Fin 1) (0 : Fin 1)))
          (fun j => (v44 (ix2 p j) + v45 (ix2 p j) * v13 (ix2 (0 : Fin 1) j)) + v7 (ix2 (0 : Fin 1) j)) := by
  unfold k0_pay14
  refine (readout_apply _ _ rfl v8 v10 _ _ _ _ _ _ _ p).trans ?_
  exact congrArg (readout (rowOf v8) (v10 (ix2 (0 : Fin 1) (0 : Fin 1))))
    (funext fun j => preact_tail_apply v44 v45 v13 v7 _ p j)

/-- The third slope, at row `p`: the stage value is the first column plus half a step of the second slope. -/
theorem pay15_apply (v1 v2 v3 : FVec Ideal S16384x1 .f32) (v7 : FVec Ideal S1x8 .f32) (v8 : Vec Ideal S1x8 .f32)
    (v10 : FVec Ideal S1x1 .f32) (v11 v12 v13 : FVec Ideal S1x8 .f32) (v44 v45 : FVec Ideal S16384x8 .f32) (p : Fin 16384) :
    k0_pay15 v1 v2 v3 v7 v8 v10 v11 v12 v13 v44 v45 (ix2 p (0 : Fin 1))
      = readout (rowOf v8) (v10 (ix2 (0 : Fin 1) (0 : Fin 1))) (fun j =>
          ((stage3 (v1 (ix2 p (0 : Fin 1))) (k0_pay14 v7 v8 v10 v13 v44 v45 (ix2 p (0 : Fin 1))) * v11 (ix2 (0 : Fin 1) j)
              + v2 (ix2 p (0 : Fin 1)) * v12 (ix2 (0 : Fin 1) j))
            + v3 (ix2 p (0 : Fin 1)) * v13 (ix2 (0 : Fin 1) j)) + v7 (ix2 (0 : Fin 1) j)) := by
  unfold k0_pay15
  refine (readout_apply _ _ rfl v8 v10 _ _ _ _ _ _ _ p).trans ?_
  exact congrArg (readout (rowOf v8) (v10 (ix2 (0 : Fin 1) (0 : Fin 1))))
    (funext fun j => preact_apply _ v2 v3 v11 v12 v13 v7 _ _ p j)

/-- The fourth stage's pre-activations, at `(p, j)`: the stage value is the first column plus a step of the third slope. -/
theorem pay16_apply (v1 v2 v3 : FVec Ideal S16384x1 .f32) (v7 : FVec Ideal S1x8 .f32) (v8 : Vec Ideal S1x8 .f32)
    (v10 : FVec Ideal S1x1 .f32) (v11 v12 v13 : FVec Ideal S1x8 .f32) (v44 v45 : FVec Ideal S16384x8 .f32)
    (p : Fin 16384) (j : Fin 8) :
    k0_pay16 v1 v2 v3 v7 v8 v10 v11 v12 v13 v44 v45 (ix2 p j)
      = ((stage4 (v1 (ix2 p (0 : Fin 1))) (k0_pay15 v1 v2 v3 v7 v8 v10 v11 v12 v13 v44 v45 (ix2 p (0 : Fin 1))) * v11 (ix2 (0 : Fin 1) j)
            + v2 (ix2 p (0 : Fin 1)) * v12 (ix2 (0 : Fin 1) j))
          + v3 (ix2 p (0 : Fin 1)) * v13 (ix2 (0 : Fin 1) j)) + v7 (ix2 (0 : Fin 1) j) := by
  unfold k0_pay16
  exact preact_apply _ v2 v3 v11 v12 v13 v7 _ _ p j

/-- The stored column, at row `p`: the first column plus the weighted combination of the first three slopes and the
    fourth, the fourth read off its pre-activations `v98`. -/
theorem pay1_apply (v1 : FVec Ideal S16384x1 .f32) (v8 : Vec Ideal S1x8 .f32) (v10 : FVec Ideal S1x1 .f32)
    (v34 v58 v82 : FVec Ideal S16384x1 .f32) (v98 : FVec Ideal S16384x8 .f32) (z : Ideal .f32) (hz : z = cZero)
    (p : Fin 16384) :
    k0_pay1 v1 v8 v10 v34 v58 v82 v98 z (ix2 p (0 : Fin 1))
      = combine (v1 (ix2 p (0 : Fin 1))) (v34 (ix2 p (0 : Fin 1))) (v58 (ix2 p (0 : Fin 1))) (v82 (ix2 p (0 : Fin 1)))
          (readout (rowOf v8) (v10 (ix2 (0 : Fin 1) (0 : Fin 1))) (fun j => v98 (ix2 p j))) := by
  unfold k0_pay1 combine
  exact congrArg (fun t => v1 (ix2 p (0 : Fin 1))
      + ((v34 (ix2 p (0 : Fin 1)) + cTwo * (v58 (ix2 p (0 : Fin 1)) + v82 (ix2 p (0 : Fin 1)))) + t) * cSixth)
    (readout_apply v98 z hz v8 v10 _ _ _ _ _ _ _ p)

/-! ## The stored column is the step -/

/-- THE BODY'S RESULT AT ROW `p`: one Runge–Kutta step of the row `(x0 (p, 0), x0 (p, 1), x0 (p, 2))` with the loaded
    weights and biases. -/
theorem body_row (x0 : Vec Ideal S16384x3 .f32) (x1 : Vec Ideal S3x8 .f32) (x2 x3 : Vec Ideal S1x8 .f32)
    (x4 : Vec Ideal S1x1 .f32) (p : Fin 16384) :
    k0_pay1 (k0_pay2 x0) x3 (k0_pay7 x4) (k0_pay11 x0 x1 x2 x3 x4)
        (k0_pay14 (k0_pay6 x2) x3 (k0_pay7 x4) (k0_pay10 x1) (k0_pay12 x0 x1 x2 x3 x4) (k0_pay13 x0))
        (k0_pay15 (k0_pay2 x0) (k0_pay3 x0) (k0_pay4 x0) (k0_pay6 x2) x3 (k0_pay7 x4) (k0_pay8 x1) (k0_pay9 x1) (k0_pay10 x1)
          (k0_pay12 x0 x1 x2 x3 x4) (k0_pay13 x0))
        (k0_pay16 (k0_pay2 x0) (k0_pay3 x0) (k0_pay4 x0) (k0_pay6 x2) x3 (k0_pay7 x4) (k0_pay8 x1) (k0_pay9 x1) (k0_pay10 x1)
          (k0_pay12 x0 x1 x2 x3 x4) (k0_pay13 x0))
        (Scalar.ofBits .f32 0x00000000#32) (ix2 p (0 : Fin 1))
      = step (wOf x1) (rowOf x2) (rowOf x3) (x4 (ix2 (0 : Fin 1) (0 : Fin 1)))
          (x0 (ix2 p (0 : Fin 3))) (x0 (ix2 p (1 : Fin 3))) (x0 (ix2 p (2 : Fin 3))) := by
  have e1 := pay11_apply x0 x1 x2 x3 x4 p
  have e2 : k0_pay14 (k0_pay6 x2) x3 (k0_pay7 x4) (k0_pay10 x1) (k0_pay12 x0 x1 x2 x3 x4) (k0_pay13 x0) (ix2 p (0 : Fin 1))
      = slope (wOf x1) (rowOf x2) (rowOf x3) (x4 (ix2 (0 : Fin 1) (0 : Fin 1))) (x0 (ix2 p (1 : Fin 3))) (x0 (ix2 p (2 : Fin 3)))
          (stage2 (x0 (ix2 p (0 : Fin 3))) (slope (wOf x1) (rowOf x2) (rowOf x3) (x4 (ix2 (0 : Fin 1) (0 : Fin 1)))
            (x0 (ix2 p (1 : Fin 3))) (x0 (ix2 p (2 : Fin 3))) (x0 (ix2 p (0 : Fin 3))))) := by
    rw [pay14_apply, pay7_at]
    refine congrArg (readout (rowOf x3) (x4 (ix2 (0 : Fin 1) (0 : Fin 1)))) (funext fun j => ?_)
    rw [pay12_apply, pay13_apply, e1, (wrow_apply x1 j).2.2, pay6_eq]
    rfl
  have e3 : k0_pay15 (k0_pay2 x0) (k0_pay3 x0) (k0_pay4 x0) (k0_pay6 x2) x3 (k0_pay7 x4) (k0_pay8 x1) (k0_pay9 x1) (k0_pay10 x1)
        (k0_pay12 x0 x1 x2 x3 x4) (k0_pay13 x0) (ix2 p (0 : Fin 1))
      = slope (wOf x1) (rowOf x2) (rowOf x3) (x4 (ix2 (0 : Fin 1) (0 : Fin 1))) (x0 (ix2 p (1 : Fin 3))) (x0 (ix2 p (2 : Fin 3)))
          (stage3 (x0 (ix2 p (0 : Fin 3))) (slope (wOf x1) (rowOf x2) (rowOf x3) (x4 (ix2 (0 : Fin 1) (0 : Fin 1)))
            (x0 (ix2 p (1 : Fin 3))) (x0 (ix2 p (2 : Fin 3)))
            (stage2 (x0 (ix2 p (0 : Fin 3))) (slope (wOf x1) (rowOf x2) (rowOf x3) (x4 (ix2 (0 : Fin 1) (0 : Fin 1)))
              (x0 (ix2 p (1 : Fin 3))) (x0 (ix2 p (2 : Fin 3))) (x0 (ix2 p (0 : Fin 3))))))) := by
    rw [pay15_apply, e2, pay7_at, (col_apply x0 p).1]
    exact congrArg (readout (rowOf x3) (x4 (ix2 (0 : Fin 1) (0 : Fin 1)))) (funext fun j => pre_of_slices x0 x1 x2 p _ j)
  have e4 : ∀ j : Fin 8, k0_pay16 (k0_pay2 x0) (k0_pay3 x0) (k0_pay4 x0) (k0_pay6 x2) x3 (k0_pay7 x4) (k0_pay8 x1) (k0_pay9 x1)
        (k0_pay10 x1) (k0_pay12 x0 x1 x2 x3 x4) (k0_pay13 x0) (ix2 p j)
      = pre (wOf x1) (rowOf x2) (x0 (ix2 p (1 : Fin 3))) (x0 (ix2 p (2 : Fin 3)))
          (stage4 (x0 (ix2 p (0 : Fin 3))) (slope (wOf x1) (rowOf x2) (rowOf x3) (x4 (ix2 (0 : Fin 1) (0 : Fin 1)))
            (x0 (ix2 p (1 : Fin 3))) (x0 (ix2 p (2 : Fin 3)))
            (stage3 (x0 (ix2 p (0 : Fin 3))) (slope (wOf x1) (rowOf x2) (rowOf x3) (x4 (ix2 (0 : Fin 1) (0 : Fin 1)))
              (x0 (ix2 p (1 : Fin 3))) (x0 (ix2 p (2 : Fin 3)))
              (stage2 (x0 (ix2 p (0 : Fin 3))) (slope (wOf x1) (rowOf x2) (rowOf x3) (x4 (ix2 (0 : Fin 1) (0 : Fin 1)))
                (x0 (ix2 p (1 : Fin 3))) (x0 (ix2 p (2 : Fin 3))) (x0 (ix2 p (0 : Fin 3))))))))) j := fun j => by
    rw [pay16_apply, e3, (col_apply x0 p).1]
    exact pre_of_slices x0 x1 x2 p _ j
  refine (pay1_apply (k0_pay2 x0) x3 (k0_pay7 x4) _ _ _ _ (FloatOps.ofBits (F := Ideal) .f32 0x00000000#32) rfl p).trans ?_
  rw [e1, e2, e3, (col_apply x0 p).1, pay7_at]
  unfold Rk4Spec.step Rk4Spec.slope
  exact congrArg _ (congrArg (readout (rowOf x3) (x4 (ix2 (0 : Fin 1) (0 : Fin 1)))) (funext e4))

end Cert.KernelIdeal.Body

end
-- ==== Proof.Rk4Tiles.lean ====
/-
  From tiles to the whole result array.

  The grid has 512 points. Point `t` stages rows `16384 t … 16384 t + 16383` of the data (all three columns) and, whole,
  the four small parameter arrays as the region finds them: the hidden weights transposed to input-major `[3, 8]`, the
  hidden bias as a row `[1, 8]`, the output weights `[1, 8]`, the output bias as `[1, 1]` — the first, second and fourth
  written by the host from the arguments before the region (a transpose and two reshapes). It writes back rows
  `16384 t … 16384 t + 16383` of the result column. The body's value at a tile row (`Body.body_row`) is the step of
  that row, so what point `t` writes back is block `t` of `Rk4Spec.G` of the arguments; the 512 blocks tile the
  result (row `r` lies in block `r / 16384`), so the result array ends as `G` of the arguments.
-/
import proofs.«156162_j74440373174513_2_alg».proof.Proof.Gen.KernelIdeal.Value
import proofs.«156162_j74440373174513_2_alg».proof.Proof.Rk4Body
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Tiles

open Cert.KernelIdeal Cert.KernelIdeal.Gen Idealize.ShloMosaic Idealize.ShloMosaic.TcCoe Idealize.SL.Sem
open Idealize.ShloMosaic.ValueIdx Idealize.ShloMosaic.StableHlo Cert.Rk4Spec Cert.KernelIdeal.Body
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Equal weights, biases and row entries give equal steps. -/
theorem step_congr {w w' : Fin 3 → Fin 8 → EReal} {b b' v v' : Fin 8 → EReal} {c c' y0 y0' y1 y1' y2 y2' : EReal}
    (hw : w = w') (hb : b = b') (hv : v = v') (hc : c = c') (h0 : y0 = y0') (h1 : y1 = y1') (h2 : y2 = y2') :
    step w b v c y0 y1 y2 = step w' b' v' c' y0' y1' y2' := by
  subst hw hb hv hc h0 h1 h2; rfl

/-! ## The body's result on a tile -/

/-- The body's stored column at tile row `y 0`: the step of that row of the loaded tile. -/
theorem out_at (x0 : Vec Ideal S16384x3 .f32) (x1 : Vec Ideal S3x8 .f32) (x2 x3 : Vec Ideal S1x8 .f32)
    (x4 : Vec Ideal S1x1 .f32) (y : S16384x1.Idx) :
    out0_5 (F := Ideal) x0 x1 x2 x3 x4 y
      = step (wOf x1) (rowOf x2) (rowOf x3) (x4 (ix2 (0 : Fin 1) (0 : Fin 1)))
          (x0 (ix2 (y 0) (0 : Fin 3))) (x0 (ix2 (y 0) (1 : Fin 3))) (x0 (ix2 (y 0) (2 : Fin 3))) := by
  obtain ⟨p, u, rfl⟩ : ∃ (p : Fin 16384) (u : Fin 1), y = ix2 p u := ⟨y 0, y 1, eq_ix2 y⟩
  obtain rfl : u = 0 := Subsingleton.elim u 0
  unfold out0_5
  rw [View.canon_unit_zero zero_offsets]
  simp only [View.ld_unit_zero (S := S16384x3) zero_offsets, View.ld_unit_zero (S := S3x8) zero_offsets,
    View.ld_unit_zero (S := S1x8) zero_offsets, View.ld_unit_zero (S := S1x1) zero_offsets]
  exact body_row x0 x1 x2 x3 x4 p

/-! ## The index maps, decided over the 512 points -/

/-- The data and the result move one block down per point; the four parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem pt_lt (t : Fin cfg0.N) : t.val < 512 := lt_of_lt_of_eq t.isLt N_0

/-- The data row that tile row `q` of point `t` is. -/
def absRow (t : Fin cfg0.N) (q : Fin 16384) : Fin 8388608 :=
  ⟨t.val * 16384 + q.val, by have := pt_lt t; have := q.isLt; omega⟩

/-! ## The arrays the region finds -/

/-- The hidden weights' window stages the host's transpose of the second argument. -/
theorem entry_weights (c : Dev nD) :
    (V m c main_v0 : S3x8.Idx → EReal) = transpose S3x8 [1, 0] (m ((c : Thread nD τ).loc main_arg1)) transposes_S8x3_S3x8_1_0 := by
  dsimp only [Gen.V, Gen.hostOps0]; after_results; all_goals rfl

/-- The hidden bias' window stages the third argument reshaped to a row. -/
theorem entry_bias (c : Dev nD) :
    (V m c main_v1 : S1x8.Idx → EReal) = shapeCast S1x8 (m ((c : Thread nD τ).loc main_arg2)) shapeCasts_S8_S1x8 := by
  dsimp only [Gen.V, Gen.hostOps0]; after_results; all_goals rfl

/-- The output bias' window stages the fifth argument reshaped to `[1, 1]`. -/
theorem entry_out_bias (c : Dev nD) :
    (V m c main_v2 : S1x1.Idx → EReal) = shapeCast S1x1 (m ((c : Thread nD τ).loc main_arg4)) shapeCasts_S1_S1x1 := by
  dsimp only [Gen.V, Gen.hostOps0]; after_results; all_goals rfl

/-! ## The blocks the body reads at point `t` -/

/-- Tile row `q` of the data block at point `t` is data row `16384 t + q`. -/
theorem tile_at (c : Dev nD) (t : Fin cfg0.N) (q : Fin 16384) (k : Fin 3) :
    (iblk m c 0 t : Vec Ideal S16384x3 .f32) (ix2 q k)
      = (m ((c : Thread nD τ).loc main_arg0) : S8388608x3.Idx → EReal) (ix2 (absRow t q) k) := by
  obtain ⟨e0, e1, -⟩ := idx_facts t
  show V m c main_arg0 (((cfg0.win 0).blk t).view.emb (ix2 q k)) = _
  rw [V_main_arg0]
  refine congrArg (m ((c : Thread nD τ).loc main_arg0) : S8388608x3.Idx → EReal) (funext fun a => Fin.ext ?_)
  match a with
  | ⟨0, _⟩ => show win0_0.index t (0 : Fin 2) * 16384 + 1 * q.val = t.val * 16384 + q.val; rw [e0]; omega
  | ⟨1, _⟩ => show win0_0.index t (1 : Fin 2) * 3 + 1 * k.val = k.val; rw [e1]; omega

/-- The staged hidden weights, input `k` to unit `j`, are the second argument's entry `(j, k)`. -/
theorem weights_at (c : Dev nD) (t : Fin cfg0.N) (k : Fin 3) (j : Fin 8) :
    (iblk m c 1 t : Vec Ideal S3x8 .f32) (ix2 k j) = (m ((c : Thread nD τ).loc main_arg1) : S8x3.Idx → EReal) (ix2 j k) := by
  obtain ⟨-, -, e0, e1, -⟩ := idx_facts t
  have he : ((cfg0.win 1).blk t).view.emb (ix2 k j) = (ix2 k j : S3x8.Idx) := funext fun a => Fin.ext (by
    match a with
    | ⟨0, _⟩ => show win0_1.index t (0 : Fin 2) * 3 + 1 * k.val = k.val; rw [e0]; omega
    | ⟨1, _⟩ => show win0_1.index t (1 : Fin 2) * 8 + 1 * j.val = j.val; rw [e1]; omega)
  show V m c main_v0 (((cfg0.win 1).blk t).view.emb (ix2 k j)) = _
  rw [he]
  exact (congrFun (entry_weights m c) _).trans (transpose_ix2_apply _ _ k j)

/-- The staged hidden bias at lane `j` is the third argument's entry `j`. -/
theorem bias_at (c : Dev nD) (t : Fin cfg0.N) (j : Fin 8) :
    (iblk m c 2 t : Vec Ideal S1x8 .f32) (ix2 (0 : Fin 1) j) = (m ((c : Thread nD τ).loc main_arg2) : S8.Idx → EReal) (ix1 j) := by
  obtain ⟨-, -, -, -, e0, e1, -⟩ := idx_facts t
  have he : ((cfg0.win 2).blk t).view.emb (ix2 (0 : Fin 1) j) = (ix2 (0 : Fin 1) j : S1x8.Idx) := funext fun a => Fin.ext (by
    match a with
    | ⟨0, _⟩ => show win0_2.index t (0 : Fin 2) * 1 + 1 * 0 = 0; rw [e0]
    | ⟨1, _⟩ => show win0_2.index t (1 : Fin 2) * 8 + 1 * j.val = j.val; rw [e1]; omega)
  show V m c main_v1 (((cfg0.win 2).blk t).view.emb (ix2 (0 : Fin 1) j)) = _
  rw [he]
  exact (congrFun (entry_bias m c) _).trans (shapeCast_a_1a_apply _ _ (0 : Fin 1) j)

/-- The staged output weights at lane `j` are the fourth argument's entry `(0, j)`. -/
theorem out_weights_at (c : Dev nD) (t : Fin cfg0.N) (j : Fin 8) :
    (iblk m c 3 t : Vec Ideal S1x8 .f32) (ix2 (0 : Fin 1) j) = (m ((c : Thread nD τ).loc main_arg3) : S1x8.Idx → EReal) (ix2 (0 : Fin 1) j) := by
  obtain ⟨-, -, -, -, -, -, e0, e1, -⟩ := idx_facts t
  have he : ((cfg0.win 3).blk t).view.emb (ix2 (0 : Fin 1) j) = (ix2 (0 : Fin 1) j : S1x8.Idx) := funext fun a => Fin.ext (by
    match a with
    | ⟨0, _⟩ => show win0_3.index t (0 : Fin 2) * 1 + 1 * 0 = 0; rw [e0]
    | ⟨1, _⟩ => show win0_3.index t (1 : Fin 2) * 8 + 1 * j.val = j.val; rw [e1]; omega)
  show V m c main_arg3 (((cfg0.win 3).blk t).view.emb (ix2 (0 : Fin 1) j)) = _
  rw [he, V_main_arg3]

/-- The staged output bias is the fifth argument's one entry. -/
theorem out_bias_at (c : Dev nD) (t : Fin cfg0.N) :
    (iblk m c 4 t : Vec Ideal S1x1 .f32) (ix2 (0 : Fin 1) (0 : Fin 1)) = (m ((c : Thread nD τ).loc main_arg4) : S1.Idx → EReal) (ix1 (0 : Fin 1)) := by
  obtain ⟨-, -, -, -, -, -, -, -, e0, e1, -⟩ := idx_facts t
  have he : ((cfg0.win 4).blk t).view.emb (ix2 (0 : Fin 1) (0 : Fin 1)) = (ix2 (0 : Fin 1) (0 : Fin 1) : S1x1.Idx) := funext fun a => Fin.ext (by
    match a with
    | ⟨0, _⟩ => show win0_4.index t (0 : Fin 2) * 1 + 1 * 0 = 0; rw [e0]
    | ⟨1, _⟩ => show win0_4.index t (1 : Fin 2) * 1 + 1 * 0 = 0; rw [e1])
  show V m c main_v2 (((cfg0.win 4).blk t).view.emb (ix2 (0 : Fin 1) (0 : Fin 1))) = _
  rw [he]
  exact (congrFun (entry_out_bias m c) _).trans (shapeCast_a_1a_apply _ _ (0 : Fin 1) (0 : Fin 1))

/-! ## What a point writes back, the cover, the array -/

/-- The result array: `Rk4Spec.G` of the five arguments as launched. -/
abbrev result (c : Dev nD) : S8388608x1.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  obtain ⟨-, -, -, -, -, -, -, -, -, -, e0, e1⟩ := idx_facts t
  funext y
  show out0_5 (iblk m c 0 t) (iblk m c 1 t) (iblk m c 2 t) (iblk m c 3 t) (iblk m c 4 t) ((cfg0.win 5).xinj (grid0.coords t) y)
      = result m c (((cfg0.win 5).blk t).view.emb y)
  rw [out_at]
  have hq : (y 0).val < 16384 := (y 0).isLt
  have hrow : (((cfg0.win 5).blk t).view.emb y) 0 = absRow t ⟨(y 0).val, hq⟩ := Fin.ext (by
    show win0_5.index t (0 : Fin 2) * 16384 + 1 * (y 0).val = t.val * 16384 + (y 0).val; rw [e0]; omega)
  show _ = row _ _ _ _ _ ((((cfg0.win 5).blk t).view.emb y) 0)
  rw [hrow]
  exact step_congr (funext fun k => funext fun j => weights_at m c t k j) (funext fun j => bias_at m c t j)
    (funext fun j => out_weights_at m c t j) (out_bias_at m c t)
    (tile_at m c t ⟨(y 0).val, hq⟩ 0) (tile_at m c t ⟨(y 0).val, hq⟩ 1) (tile_at m c t ⟨(y 0).val, hq⟩ 2)

/-- An index of the result is in point `t`'s block iff each coordinate is in the block's range. -/
theorem mem_blk (t : Fin cfg0.N) (i : S8388608x1.Idx) :
    i ∈ ((cfg0.win 5).blk t).view.set ↔ ∀ a : Fin 2, win0_5.index t a * S16384x1.size a ≤ (i a).val
      ∧ (i a).val < win0_5.index t a * S16384x1.size a + S16384x1.size a := by
  show i ∈ ((View.whole main_v3).slice (win0_5.rect t)).set ↔ _
  rw [View.set_slice_whole, Rect.mem_set_unit]
  exact Iff.rfl

/-- Every index of the result is in some point's block: row `r` is in block `r / 16384`. -/
theorem cover (i : S8388608x1.Idx) :
    ∃ t : Fin cfg0.N, (cfg0.win 5).flush t = true ∧ i ∈ ((cfg0.win 5).blk t).view.set := by
  have hi0 : (i 0).val < 8388608 := (i 0).isLt
  have hi1 : (i 1).val < 1 := (i 1).isLt
  obtain ⟨t, ht⟩ : ∃ t : Fin cfg0.N, t.val = (i 0).val / 16384 :=
    ⟨⟨(i 0).val / 16384, lt_of_lt_of_eq (by omega : (i 0).val / 16384 < 512) N_0.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 16384 ≤ (i 0).val ∧ (i 0).val < win0_5.index t (0 : Fin 2) * 16384 + 16384
    rw [e0, ht]; omega
  | ⟨1, _⟩ =>
    show win0_5.index t (1 : Fin 2) * 1 ≤ (i 1).val ∧ (i 1).val < win0_5.index t (1 : Fin 2) * 1 + 1
    rw [e1]; omega

/-- THE RESULT ARRAY after the run. -/
theorem final (c : Dev nD) : (dats m 0 c).arrAt 5 cfg0.N = result m c :=
  (dats m 0 c).arrAt_eq_of_cover 5 (result m c) (fun t _ => flushed_eq m c t) cover

/-- The kernel's run: the result array ends as `Rk4Spec.G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Tiles

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDot.lean ====
/-
  A plain matrix product computed by the host's general contraction, read at an entry, over the extended reals.

  For dimension numbers that contract the left operand's second axis with the right operand's first and have no
  batch axis, the contraction `[M, K] × [K, N] → [M, N]` has at the entry `(p, q)` the value
  `∑ k, lhs (p, k) * rhs (k, q)` — the same textbook sum a product accumulated into the zero matrix has.
-/
import proofs.«156162_j74440373174513_2_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The host's contraction with plain dimension numbers, at the entry `(p, q)`, is the sum over the contracted axis
    of the products of the left operand's row `p` with the right operand's column `q`. -/
theorem host_apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    Host.dotGeneral d prec lhs rhs (ix2 p q) = ∑ k : Fin K, (lhs (ix2 p k) : EReal) * (rhs (ix2 k q) : EReal) := by
  simp only [Host.dotGeneral]
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.Rk4Reference.lean ====
/-
  The reference's result array is `Rk4Spec.G` of its arguments.

  The reference evaluates the perceptron four times on whole arrays. Each time it glues a stage column `[8388608, 1]` in
  front of the two frozen columns of the data, contracts the rows with the transposed hidden weights, adds the hidden
  bias, applies the ramp, contracts with the transposed output weights and adds the output bias. All four evaluations
  are one function `refSlope` of the stage column; read at row `r` it is `Rk4Spec.slope` at the stage column's entry:
  a contraction over three indices is the three products added left to right (`Rk4Spec.sum_three_eq_pre`), a
  contraction over eight indices is the sum in `Rk4Spec.readout`. The stage columns and the final combination are
  pointwise operations with splat constants, read entry by entry.
-/
import proofs.«156162_j74440373174513_2_alg».proof.Proof.Gen.ReferenceIdeal.Read
import proofs.«156162_j74440373174513_2_alg».proof.Proof.Rk4Spec
import proofs.«156162_j74440373174513_2_alg».proof.Proof.LibDot
import Idealize.ShloMosaic.Lib.Pipeline.Value
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.ValueIdx Cert.Rk4Spec

variable (x0 : (⟨S8388608x3, .f32⟩ : BufTy).Contents (Elt Ideal)) (x1 : (⟨S8x3, .f32⟩ : BufTy).Contents (Elt Ideal))
  (x2 : (⟨S8, .f32⟩ : BufTy).Contents (Elt Ideal)) (x3 : (⟨S1x8, .f32⟩ : BufTy).Contents (Elt Ideal))
  (x4 : (⟨S1, .f32⟩ : BufTy).Contents (Elt Ideal))

/-- Both contractions are plain matrix products: rows against columns, one contracted axis, no batch axis. -/
theorem plain_hidden : PlainMatmul.IsPlain dot_S8388608x3_S3x8_S8388608x8_1_0_0_1_n_n := ⟨rfl, rfl, rfl, rfl, rfl, rfl⟩
theorem plain_output : PlainMatmul.IsPlain dot_S8388608x8_S8x1_S8388608x1_1_0_0_1_n_n := ⟨rfl, rfl, rfl, rfl, rfl, rfl⟩

/-! ## The re-laid parameters, entry by entry -/

/-- The first column of the data, at row `r`. -/
theorem v0_at (r : Fin 8388608) : val_main_v0 (F := Ideal) x0 (ix2 r (0 : Fin 1)) = x0 (ix2 r (0 : Fin 3)) :=
  slice2_axis1_apply 0 x0 _ r (0 : Fin 1) (0 : Fin 3) rfl

/-- The two frozen columns of the data, at row `r`. -/
theorem v1_at (r : Fin 8388608) :
    val_main_v1 (F := Ideal) x0 (ix2 r (0 : Fin 2)) = x0 (ix2 r (1 : Fin 3))
    ∧ val_main_v1 (F := Ideal) x0 (ix2 r (1 : Fin 2)) = x0 (ix2 r (2 : Fin 3)) :=
  ⟨slice2_axis1_apply 1 x0 _ r (0 : Fin 2) (1 : Fin 3) rfl, slice2_axis1_apply 1 x0 _ r (1 : Fin 2) (2 : Fin 3) rfl⟩

/-- The transposed hidden weights: input `k` to unit `j` is the stored entry `(j, k)`. -/
theorem v3_at (k : Fin 3) (j : Fin 8) : val_main_v3 (F := Ideal) x1 (ix2 k j) = x1 (ix2 j k) :=
  transpose_ix2_apply x1 _ k j

/-- The hidden bias repeated down the rows, at `(r, j)`. -/
theorem v6_at (r : Fin 8388608) (j : Fin 8) : val_main_v6 (F := Ideal) x2 (ix2 r j) = x2 (ix1 j) :=
  (val_main_v6_apply x2 _).trans ((val_main_v5_apply x2 _).trans
    (congrArg x2 (funext fun a => Fin.ext (by match a with | ⟨0, _⟩ => rfl))))

/-- The ramp's threshold, splat over the hidden layer. -/
theorem relu_zero_at (r : Fin 8388608) (j : Fin 8) : val_main_call0_v0 (F := Ideal) (ix2 r j) = cZero :=
  val_main_call0_v0_apply (F := Ideal) _

/-- The transposed output weights, at `(j, 0)`. -/
theorem v9_at (j : Fin 8) : val_main_v9 (F := Ideal) x3 (ix2 j (0 : Fin 1)) = x3 (ix2 (0 : Fin 1) j) :=
  transpose_ix2_apply x3 _ j (0 : Fin 1)

/-- The output bias repeated down the rows, at `(r, 0)`. -/
theorem v12_at (r : Fin 8388608) : val_main_v12 (F := Ideal) x4 (ix2 r (0 : Fin 1)) = x4 (ix1 (0 : Fin 1)) :=
  (val_main_v12_apply x4 _).trans ((val_main_v11_apply x4 _).trans
    (congrArg x4 (funext fun a => Fin.ext (by match a with | ⟨0, _⟩ => rfl))))

/-! ## One evaluation of the perceptron, as a function of the stage column -/

/-- The stage's input rows: the stage column in front of the two frozen columns. -/
def stageRows (sc : (⟨S8388608x1, .f32⟩ : BufTy).Contents (Elt Ideal)) : (⟨S8388608x3, .f32⟩ : BufTy).Contents (Elt Ideal) :=
  concatenate S8388608x3 1 [⟨S8388608x1, sc⟩, ⟨S8388608x2, val_main_v1 (F := Ideal) x0⟩] concatenates_S8388608x1_S8388608x2_S8388608x3_d1

/-- The hidden layer after the ramp. -/
def refHidden (sc : (⟨S8388608x1, .f32⟩ : BufTy).Contents (Elt Ideal)) : (⟨S8388608x8, .f32⟩ : BufTy).Contents (Elt Ideal) :=
  maximumf (F := Ideal) (φ := .f32) (addf (F := Ideal) (φ := .f32) (Host.dotGeneral (F := Ideal) (φ₁ := .f32) (φ₂ := .f32) dot_S8388608x3_S3x8_S8388608x8_1_0_0_1_n_n none (stageRows x0 sc) (val_main_v3 (F := Ideal) x1))
    (val_main_v6 (F := Ideal) x2)) (val_main_call0_v0 (F := Ideal))

/-- The perceptron's output column. -/
def refSlope (sc : (⟨S8388608x1, .f32⟩ : BufTy).Contents (Elt Ideal)) : (⟨S8388608x1, .f32⟩ : BufTy).Contents (Elt Ideal) :=
  addf (F := Ideal) (φ := .f32) (Host.dotGeneral (F := Ideal) (φ₁ := .f32) (φ₂ := .f32) dot_S8388608x8_S8x1_S8388608x1_1_0_0_1_n_n none (refHidden x0 x1 x2 sc) (val_main_v9 (F := Ideal) x3))
    (val_main_v12 (F := Ideal) x4)

/-- Row `r` of the stage's input: the stage column's entry, then the data's entries `(r, 1)` and `(r, 2)`. -/
theorem stageRows_at (sc : (⟨S8388608x1, .f32⟩ : BufTy).Contents (Elt Ideal)) (r : Fin 8388608) :
    stageRows x0 sc (ix2 r (0 : Fin 3)) = sc (ix2 r (0 : Fin 1))
    ∧ stageRows x0 sc (ix2 r (1 : Fin 3)) = x0 (ix2 r (1 : Fin 3))
    ∧ stageRows x0 sc (ix2 r (2 : Fin 3)) = x0 (ix2 r (2 : Fin 3)) := by
  refine ⟨?_, ?_, ?_⟩
  · exact concatenate_pair_apply_left (1 : Fin 2) sc (val_main_v1 (F := Ideal) x0) _ (ix2 r (0 : Fin 3)) rfl (ix2 r (0 : Fin 1))
      (fun b => by match b with | ⟨0, _⟩ => rfl | ⟨1, _⟩ => rfl)
  · refine (concatenate_pair_apply_right (1 : Fin 2) sc (val_main_v1 (F := Ideal) x0) _ (ix2 r (1 : Fin 3)) rfl rfl (ix2 r (0 : Fin 2))
      (fun b hb => by match b with | ⟨0, _⟩ => rfl | ⟨1, _⟩ => exact absurd rfl hb) rfl).trans (v1_at x0 r).1
  · refine (concatenate_pair_apply_right (1 : Fin 2) sc (val_main_v1 (F := Ideal) x0) _ (ix2 r (2 : Fin 3)) rfl rfl (ix2 r (1 : Fin 2))
      (fun b hb => by match b with | ⟨0, _⟩ => rfl | ⟨1, _⟩ => exact absurd rfl hb) rfl).trans (v1_at x0 r).2

/-- The hidden layer at `(r, j)`: the ramp of `Rk4Spec.pre` at the stage column's entry. -/
theorem refHidden_at (sc : (⟨S8388608x1, .f32⟩ : BufTy).Contents (Elt Ideal)) (r : Fin 8388608) (j : Fin 8) :
    refHidden x0 x1 x2 sc (ix2 r j)
      = max (pre (fun k j => x1 (ix2 j k)) (fun j => x2 (ix1 j)) (x0 (ix2 r (1 : Fin 3))) (x0 (ix2 r (2 : Fin 3)))
          (sc (ix2 r (0 : Fin 1))) j) cZero := by
  show max (Host.dotGeneral (F := Ideal) (φ₁ := .f32) (φ₂ := .f32) dot_S8388608x3_S3x8_S8388608x8_1_0_0_1_n_n none (stageRows x0 sc) (val_main_v3 (F := Ideal) x1) (ix2 r j)
      + val_main_v6 (F := Ideal) x2 (ix2 r j)) (val_main_call0_v0 (F := Ideal) (ix2 r j)) = _
  rw [PlainMatmul.host_apply plain_hidden none (stageRows x0 sc) (val_main_v3 (F := Ideal) x1) r j, v6_at, relu_zero_at]
  simp only [v3_at]
  exact congrArg (max · cZero) (sum_three_eq_pre (fun k j => x1 (ix2 j k)) (fun j => x2 (ix1 j)) _ _ _ j
    (fun k => stageRows x0 sc (ix2 r k)) (stageRows_at x0 sc r).1 (stageRows_at x0 sc r).2.1 (stageRows_at x0 sc r).2.2)

/-- The perceptron's output at row `r`: `Rk4Spec.slope` at the stage column's entry. -/
theorem refSlope_at (sc : (⟨S8388608x1, .f32⟩ : BufTy).Contents (Elt Ideal)) (r : Fin 8388608) :
    refSlope x0 x1 x2 x3 x4 sc (ix2 r (0 : Fin 1))
      = slope (fun k j => x1 (ix2 j k)) (fun j => x2 (ix1 j)) (fun j => x3 (ix2 (0 : Fin 1) j)) (x4 (ix1 (0 : Fin 1)))
          (x0 (ix2 r (1 : Fin 3))) (x0 (ix2 r (2 : Fin 3))) (sc (ix2 r (0 : Fin 1))) := by
  show Host.dotGeneral (F := Ideal) (φ₁ := .f32) (φ₂ := .f32) dot_S8388608x8_S8x1_S8388608x1_1_0_0_1_n_n none (refHidden x0 x1 x2 sc) (val_main_v9 (F := Ideal) x3) (ix2 r (0 : Fin 1))
      + val_main_v12 (F := Ideal) x4 (ix2 r (0 : Fin 1)) = _
  rw [PlainMatmul.host_apply plain_output none (refHidden x0 x1 x2 sc) (val_main_v9 (F := Ideal) x3) r (0 : Fin 1), v12_at]
  unfold Rk4Spec.slope Rk4Spec.readout
  refine congrArg (· + x4 (ix1 (0 : Fin 1))) (Finset.sum_congr rfl fun j _ => ?_)
  rw [refHidden_at, v9_at]

/-! ## The four evaluations and the stage columns between them -/

theorem k1_eq : val_main_v13 (F := Ideal) x0 x1 x2 x3 x4 = refSlope x0 x1 x2 x3 x4 (val_main_v0 (F := Ideal) x0) := rfl
theorem k2_eq : val_main_v28 (F := Ideal) x0 x1 x2 x3 x4 = refSlope x0 x1 x2 x3 x4 (val_main_v16 (F := Ideal) x0 x1 x2 x3 x4) := rfl
theorem k3_eq : val_main_v43 (F := Ideal) x0 x1 x2 x3 x4 = refSlope x0 x1 x2 x3 x4 (val_main_v31 (F := Ideal) x0 x1 x2 x3 x4) := rfl
theorem k4_eq : val_main_v58 (F := Ideal) x0 x1 x2 x3 x4 = refSlope x0 x1 x2 x3 x4 (val_main_v46 (F := Ideal) x0 x1 x2 x3 x4) := rfl

/-- The splat constants, at any entry: half a step, a step, two, a sixth of a step. -/
theorem c14_at (i : S8388608x1.Idx) : val_main_v14 (F := Ideal) i = cHalfStep := val_main_v14_apply (F := Ideal) i
theorem c29_at (i : S8388608x1.Idx) : val_main_v29 (F := Ideal) i = cHalfStep := val_main_v29_apply (F := Ideal) i
theorem c44_at (i : S8388608x1.Idx) : val_main_v44 (F := Ideal) i = cStep := val_main_v44_apply (F := Ideal) i
theorem c60_at (i : S8388608x1.Idx) : val_main_v60 (F := Ideal) i = cTwo := val_main_v60_apply (F := Ideal) i
theorem c64_at (i : S8388608x1.Idx) : val_main_v64 (F := Ideal) i = cSixth := val_main_v64_apply (F := Ideal) i

/-- The second, third and fourth stage columns at row `r`: the first column's entry plus a multiple of the slope before. -/
theorem s2_at (r : Fin 8388608) : val_main_v16 (F := Ideal) x0 x1 x2 x3 x4 (ix2 r (0 : Fin 1))
    = stage2 (x0 (ix2 r (0 : Fin 3))) (val_main_v13 (F := Ideal) x0 x1 x2 x3 x4 (ix2 r (0 : Fin 1))) := by
  show val_main_v0 (F := Ideal) x0 (ix2 r (0 : Fin 1)) + val_main_v14 (F := Ideal) (ix2 r (0 : Fin 1))
      * val_main_v13 (F := Ideal) x0 x1 x2 x3 x4 (ix2 r (0 : Fin 1)) = _
  rw [v0_at, c14_at]
  rfl

theorem s3_at (r : Fin 8388608) : val_main_v31 (F := Ideal) x0 x1 x2 x3 x4 (ix2 r (0 : Fin 1))
    = stage3 (x0 (ix2 r (0 : Fin 3))) (val_main_v28 (F := Ideal) x0 x1 x2 x3 x4 (ix2 r (0 : Fin 1))) := by
  show val_main_v0 (F := Ideal) x0 (ix2 r (0 : Fin 1)) + val_main_v29 (F := Ideal) (ix2 r (0 : Fin 1))
      * val_main_v28 (F := Ideal) x0 x1 x2 x3 x4 (ix2 r (0 : Fin 1)) = _
  rw [v0_at, c29_at]
  rfl

theorem s4_at (r : Fin 8388608) : val_main_v46 (F := Ideal) x0 x1 x2 x3 x4 (ix2 r (0 : Fin 1))
    = stage4 (x0 (ix2 r (0 : Fin 3))) (val_main_v43 (F := Ideal) x0 x1 x2 x3 x4 (ix2 r (0 : Fin 1))) := by
  show val_main_v0 (F := Ideal) x0 (ix2 r (0 : Fin 1)) + val_main_v44 (F := Ideal) (ix2 r (0 : Fin 1))
      * val_main_v43 (F := Ideal) x0 x1 x2 x3 x4 (ix2 r (0 : Fin 1)) = _
  rw [v0_at, c44_at]
  rfl

/-- The result at row `r`: the weighted combination of the four slopes added to the first column's entry. -/
theorem final_at (r : Fin 8388608) : val_main_v66 (F := Ideal) x0 x1 x2 x3 x4 (ix2 r (0 : Fin 1))
    = combine (x0 (ix2 r (0 : Fin 3))) (val_main_v13 (F := Ideal) x0 x1 x2 x3 x4 (ix2 r (0 : Fin 1)))
        (val_main_v28 (F := Ideal) x0 x1 x2 x3 x4 (ix2 r (0 : Fin 1))) (val_main_v43 (F := Ideal) x0 x1 x2 x3 x4 (ix2 r (0 : Fin 1)))
        (val_main_v58 (F := Ideal) x0 x1 x2 x3 x4 (ix2 r (0 : Fin 1))) := by
  show val_main_v0 (F := Ideal) x0 (ix2 r (0 : Fin 1))
      + ((val_main_v13 (F := Ideal) x0 x1 x2 x3 x4 (ix2 r (0 : Fin 1))
            + val_main_v60 (F := Ideal) (ix2 r (0 : Fin 1))
              * (val_main_v28 (F := Ideal) x0 x1 x2 x3 x4 (ix2 r (0 : Fin 1)) + val_main_v43 (F := Ideal) x0 x1 x2 x3 x4 (ix2 r (0 : Fin 1))))
          + val_main_v58 (F := Ideal) x0 x1 x2 x3 x4 (ix2 r (0 : Fin 1))) * val_main_v64 (F := Ideal) (ix2 r (0 : Fin 1)) = _
  rw [v0_at, c60_at, c64_at]
  rfl

/-- Equal slopes combine to equal results. -/
theorem combine_congr {y0 a a' b b' c c' d d' : EReal} (ha : a = a') (hb : b = b') (hc : c = c') (hd : d = d') :
    combine y0 a b c d = combine y0 a' b' c' d' := by subst ha hb hc hd; rfl

/-- THE REFERENCE'S RESULT: entry `(r, 0)` is one Runge–Kutta step of row `r`. -/
theorem result_eq : val_main_v66 (F := Ideal) x0 x1 x2 x3 x4 = G x0 x1 x2 x3 x4 := by
  funext i
  obtain ⟨r, u, rfl⟩ : ∃ (r : Fin 8388608) (u : Fin 1), i = ix2 r u := ⟨i 0, i 1, eq_ix2 i⟩
  obtain rfl : u = 0 := Subsingleton.elim u 0
  have k1 := (congrFun (k1_eq x0 x1 x2 x3 x4) (ix2 r (0 : Fin 1))).trans ((refSlope_at x0 x1 x2 x3 x4 _ r).trans
    (congrArg (slope (fun k j => x1 (ix2 j k)) (fun j => x2 (ix1 j)) (fun j => x3 (ix2 (0 : Fin 1) j)) (x4 (ix1 (0 : Fin 1)))
      (x0 (ix2 r (1 : Fin 3))) (x0 (ix2 r (2 : Fin 3)))) (v0_at x0 r)))
  have k2 := (congrFun (k2_eq x0 x1 x2 x3 x4) (ix2 r (0 : Fin 1))).trans ((refSlope_at x0 x1 x2 x3 x4 _ r).trans
    (congrArg (slope (fun k j => x1 (ix2 j k)) (fun j => x2 (ix1 j)) (fun j => x3 (ix2 (0 : Fin 1) j)) (x4 (ix1 (0 : Fin 1)))
      (x0 (ix2 r (1 : Fin 3))) (x0 (ix2 r (2 : Fin 3))))
      ((s2_at x0 x1 x2 x3 x4 r).trans (congrArg (stage2 (x0 (ix2 r (0 : Fin 3)))) k1))))
  have k3 := (congrFun (k3_eq x0 x1 x2 x3 x4) (ix2 r (0 : Fin 1))).trans ((refSlope_at x0 x1 x2 x3 x4 _ r).trans
    (congrArg (slope (fun k j => x1 (ix2 j k)) (fun j => x2 (ix1 j)) (fun j => x3 (ix2 (0 : Fin 1) j)) (x4 (ix1 (0 : Fin 1)))
      (x0 (ix2 r (1 : Fin 3))) (x0 (ix2 r (2 : Fin 3))))
      ((s3_at x0 x1 x2 x3 x4 r).trans (congrArg (stage3 (x0 (ix2 r (0 : Fin 3)))) k2))))
  have k4 := (congrFun (k4_eq x0 x1 x2 x3 x4) (ix2 r (0 : Fin 1))).trans ((refSlope_at x0 x1 x2 x3 x4 _ r).trans
    (congrArg (slope (fun k j => x1 (ix2 j k)) (fun j => x2 (ix1 j)) (fun j => x3 (ix2 (0 : Fin 1) j)) (x4 (ix1 (0 : Fin 1)))
      (x0 (ix2 r (1 : Fin 3))) (x0 (ix2 r (2 : Fin 3))))
      ((s4_at x0 x1 x2 x3 x4 r).trans (congrArg (stage4 (x0 (ix2 r (0 : Fin 3)))) k3))))
  exact (final_at x0 x1 x2 x3 x4 r).trans (combine_congr k1 k2 k3 k4)

end Cert.ReferenceIdeal.RefValue

end
-- ==== Proof.lean ====
/-
  A kernel that advances 8 388 608 independent rows by one classical Runge–Kutta step of a three-input, eight-unit,
  one-output ramp perceptron, against the same step written with whole-array matrix products.

  The kernel walks the rows in 512 tiles of 16384 and writes the two tiny layers as broadcast products and a sum along
  the lanes; the reference glues each stage column to the two frozen columns and contracts with the transposed
  weights. Over the extended reals both are, row by row, `Rk4Spec.step`: the hidden layer's contraction over three
  indices is its three products added in the order the kernel adds them, the output layer's contraction over eight
  indices is the kernel's sum along the lanes, and the five float constants are the same bit patterns on both sides.
  Only the regrouping of a finite sum is used, so the inputs' finiteness is never opened.

  The kernel's run, with the result array named tile by tile, and the reference's run and its operations read at an
  index are imported from the generated modules; `Rk4Body` reads the kernel body at a tile row, `Rk4Tiles` assembles
  the tiles into the whole array, `Rk4Reference` reads the reference's result, and the claims below set the two runs
  side by side at the one function `Rk4Spec.G`. The ideal pass rewrote nothing, so the kernel's idealization is its own
  text read over the extended reals.
-/
import proofs.«156162_j74440373174513_2_alg».proof.Defs
import proofs.«156162_j74440373174513_2_alg».proof.Proof.Gen.Kernel
import proofs.«156162_j74440373174513_2_alg».proof.Proof.Gen.Kernel.Skeleton
import proofs.«156162_j74440373174513_2_alg».proof.Proof.Gen.Kernel.Launch
import proofs.«156162_j74440373174513_2_alg».proof.Proof.Gen.Kernel.Points
import proofs.«156162_j74440373174513_2_alg».proof.Proof.Gen.Kernel.Frame
import proofs.«156162_j74440373174513_2_alg».proof.Proof.Gen.KernelIdeal
import proofs.«156162_j74440373174513_2_alg».proof.Proof.Gen.KernelIdeal.Skeleton
import proofs.«156162_j74440373174513_2_alg».proof.Proof.Gen.KernelIdeal.Launch
import proofs.«156162_j74440373174513_2_alg».proof.Proof.Gen.KernelIdeal.Points
import proofs.«156162_j74440373174513_2_alg».proof.Proof.Gen.KernelIdeal.Frame
import proofs.«156162_j74440373174513_2_alg».proof.Proof.Gen.ReferenceIdeal
import proofs.«156162_j74440373174513_2_alg».proof.Proof.Gen.Pre_finite_inputs
import proofs.«156162_j74440373174513_2_alg».proof.Proof.Gen.KernelIdeal.Value
import proofs.«156162_j74440373174513_2_alg».proof.Proof.Gen.ReferenceIdeal.Run
import proofs.«156162_j74440373174513_2_alg».proof.Proof.Gen.ReferenceIdeal.Read
import proofs.«156162_j74440373174513_2_alg».proof.Proof.Rk4Tiles
import proofs.«156162_j74440373174513_2_alg».proof.Proof.Rk4Reference
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments, the kernel's result array ends as `Rk4Spec.G` of its arguments
    (`Tiles.run`) and the reference's as `Rk4Spec.G` of its own (`RefValue.result_eq` on its generated run): one
    function of equal arguments. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
